-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel

variable [Facts]

def fn {F : FTy → Type} [FloatOps F] (main_arg0 : FVec F S64x256x56x56 .f32) (main_arg1 : FVec F S64x256x56x56 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S64x256x56x56 .f32 := Host.absf main_arg1
  let main_cst_0 : FVec F S_ .f32 := constant S_ .f32 0x7F800000#32
  let main_v5 : FVec F S64x256x56x56 .f32 := broadcastInDim S64x256x56x56 ![] bcast_S_S64x256x56x56 main_cst_0
  let main_v6 : IVec S64x256x56x56 1 := cmpf .olt main_v4 main_v5
  let main_c_1 : IVec S_ 1 := constantI S_ 1 1#1
  let main_v7 : IVec S_ 1 := (fun x v => Host.reduce IntOp.andi x v reducesTo_S64x256x56x56_S_d0_1_2_3 h_S_) main_v6 main_c_1
  let main_v8 : IVec S_ 1 := andi main_v3 main_v7
  main_v8
-- ==== Kernel.lean ====
abbrev S64x256x56x56 : Shape := ⟨4, ![64, 256, 56, 56]⟩
abbrev S401408x128 : Shape := ⟨2, ![401408, 128]⟩
abbrev S16x128 : Shape := ⟨2, ![16, 128]⟩
abbrev S4096x128 : Shape := ⟨2, ![4096, 128]⟩
abbrev S8x128 : Shape := ⟨2, ![8, 128]⟩
abbrev S1x128 : Shape := ⟨2, ![1, 128]⟩
abbrev S128 : Shape := ⟨1, ![128]⟩
abbrev S1 : Shape := ⟨1, ![1]⟩
abbrev S1x1 : Shape := ⟨2, ![1, 1]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S64x256x56x56, .f32⟩
  | .hbm, ⟨1, _⟩ => ⟨S64x256x56x56, .f32⟩
  | .hbm, ⟨2, _⟩ => ⟨S401408x128, .f32⟩
  | .hbm, ⟨3, _⟩ => ⟨S401408x128, .f32⟩
  | .hbm, ⟨4, _⟩ => ⟨S16x128, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S8x128, .f32⟩
  | .local _ .vmem, ⟨5, _⟩ => ⟨S8x128, .f32⟩
  | .local _ .vmem, ⟨6, _⟩ => ⟨S1x128, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 49], ![false, false]⟩

def k0_cond2 (i : grid0.Coords) : BitVec 1 :=
  let arg1 : BitVec 32 := BitVec.ofNat 32 (i 1).val
  let c48_i32 : BitVec 32 := 48#32
  let v24 : BitVec 1 := Scalar.cmpi .eq arg1 c48_i32
  let v25 : BitVec 32 := Scalar.extui v24
  let c0_i32_10 : BitVec 32 := 0#32
  let v26 : BitVec 1 := Scalar.cmpi .ne v25 c0_i32_10
  v26

def cc0_transform_0 (i : grid0.Coords) : Fin 2 → Nat :=
  let arg0 : BitVec 32 := BitVec.ofNat 32 (i 0).val
  let arg1 : BitVec 32 := BitVec.ofNat 32 (i 1).val
  let c49_i32 : BitVec 32 := 49#32
  let v0 : BitVec 32 := Scalar.muli arg0 c49_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c49_i32 : BitVec 32 := 49#32
  let v0 : BitVec 32 := Scalar.muli arg0 c49_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S64x256x56x56_S401408x128 : S64x256x56x56.ShapeCasts S401408x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S128 : S4096x128.Reduces [0] S128
  shapeCasts_S128_S1x128 : S128.ShapeCasts S1x128
  reduces_S1x128_S1 : S1x128.Reduces [1] S1
  shapeCasts_S1_S1x1 : S1.ShapeCasts S1x1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S401408x128.size a
  hwx0_0 : ∀ i : grid0.Coords, EltTy.bits .f32 = 32 ∨ (Rect.block (s := S401408x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S401408x128.size a
  hwx0_1 : ∀ i : grid0.Coords, EltTy.bits .f32 = 32 ∨ (Rect.block (s := S401408x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x256x56x56 : Shape := ⟨4, ![64, 256, 56, 56]⟩
abbrev S51380224 : Shape := ⟨1, ![51380224]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S64x256x56x56, .f32⟩
  | .hbm, ⟨2, _⟩ => ⟨S51380224, .f32⟩
  | .hbm, ⟨3, _⟩ => ⟨S51380224, .f32⟩
  | .hbm, ⟨4, _⟩ => ⟨S_, .f32⟩
  | .hbm, ⟨5, _⟩ => ⟨S51380224, .f32⟩
  | .hbm, ⟨6, _⟩ => ⟨S51380224, .i1⟩
  | .hbm, ⟨7, _⟩ => ⟨S_, .f32⟩
  | .hbm, ⟨8, _⟩ => ⟨S51380224, .f32⟩
  | .hbm, ⟨9, _⟩ => ⟨S51380224, .i1⟩
  | .hbm, ⟨10, _⟩ => ⟨S51380224, .i1⟩
  | .hbm, ⟨11, _⟩ => ⟨S51380224, .f32⟩
  | .hbm, ⟨12, _⟩ => ⟨S51380224, .f32⟩
  | .hbm, ⟨13, _⟩ => ⟨S51380224, .f32⟩
  | .hbm, ⟨14, _⟩ => ⟨S51380224, .f32⟩
  | .hbm, ⟨15, _⟩ => ⟨S51380224, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  shapeCasts_S64x256x56x56_S51380224 : S64x256x56x56.ShapeCasts S51380224
  bcast_S_S51380224 : S_.BroadcastsInDim S51380224 (![] : Fin 0 → Fin S51380224.rank)
  reducesTo_S51380224_S_d0 : S51380224.ReducesTo [0] S_
  h_S_ : 0 < S_.numel

variable [Facts₀]

class Facts : Prop extends Facts₀ where

variable [Facts]
-- ==== Proof.KernelPieces.lean ====
/-
  What one grid step leaves behind, as values, at any float instance. `x0` is the step's block of the source rows, `x1`
  its block of the target rows, `xs0` the 128-lane accumulator as the step before left it.

  * a first step of a half leaves accumulator = (zero row) + column sums of the block's squared errors;
  * a middle step leaves accumulator = xs0 + column sums;
  * a last step leaves the same accumulator, and the output block = the accumulator's lane sum divided by the element
    count, broadcast over 8 × 128.

  Each buffer is written by stores that cover it whole, so its contents are the last store's payload; the loads read
  whole buffers, so each loaded value is the buffer's contents.
-/
import proofs.«158376_j38955353375166_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A first step: the accumulator is zeroed, read back, and the block's column sums added. -/
theorem acc_first (c : Dev nD) (i : grid0.Coords) (a2 : Memref sig .tc .vmem S4096x128 .f32) (h2 : a2.IsWhole)
    (a3 : Memref sig .tc .vmem S4096x128 .f32) (h3 : a3.IsWhole) (a4 : Memref sig .tc .vmem S8x128 .f32) (h4 : a4.IsWhole)
    (a5 : Memref sig .tc .vmem S1x128 .f32) (h5 : a5.IsWhole) (hc0 : cond0_0 i) (hc1 : ¬cond0_1 i)
    (x0 x1 : Vec F S4096x128 .f32) :
    sout0_A_0 c i a2 h2 a3 h3 a4 h4 a5 h5 hc0 hc1 x0 x1 = k0_pay2 x1 x0 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x128) hz, View.readCov_unit_zero (S := S1x128) _ hz]
  simp only [View.readAt_eq_ld, h2.read_unread, h3.read_unread, View.ld_unit_zero (S := S4096x128) hz]

/-- A middle step: the block's column sums are added to what the step before left. -/
theorem acc_mid (c : Dev nD) (i : grid0.Coords) (a2 : Memref sig .tc .vmem S4096x128 .f32) (h2 : a2.IsWhole)
    (a3 : Memref sig .tc .vmem S4096x128 .f32) (h3 : a3.IsWhole) (a4 : Memref sig .tc .vmem S8x128 .f32) (h4 : a4.IsWhole)
    (a5 : Memref sig .tc .vmem S1x128 .f32) (h5 : a5.IsWhole) (hc0 : ¬cond0_0 i) (hc1 : ¬cond0_1 i)
    (x0 x1 : Vec F S4096x128 .f32) (xs0 : Vec F S1x128 .f32) :
    sout0_B_0 c i a2 h2 a3 h3 a4 h4 a5 h5 hc0 hc1 x0 x1 xs0 = k0_pay2 x1 x0 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz]
  simp only [View.readAt_eq_ld, h2.read_unread, h3.read_unread, h5.read_unread, View.ld_unit_zero (S := S4096x128) hz,
    View.ld_unit_zero (S := S1x128) hz]

/-- A last step leaves the same accumulator as a middle one. -/
theorem acc_last (c : Dev nD) (i : grid0.Coords) (a2 : Memref sig .tc .vmem S4096x128 .f32) (h2 : a2.IsWhole)
    (a3 : Memref sig .tc .vmem S4096x128 .f32) (h3 : a3.IsWhole) (a4 : Memref sig .tc .vmem S8x128 .f32) (h4 : a4.IsWhole)
    (a5 : Memref sig .tc .vmem S1x128 .f32) (h5 : a5.IsWhole) (hc0 : ¬cond0_0 i) (hc1 : cond0_1 i)
    (x0 x1 : Vec F S4096x128 .f32) (xs0 : Vec F S1x128 .f32) :
    sout0_C_0 c i a2 h2 a3 h3 a4 h4 a5 h5 hc0 hc1 x0 x1 xs0 = k0_pay2 x1 x0 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S4096x128) hz,
    View.ld_unit_zero (S := S1x128) hz]

/-- A last step's output block: the mean's share computed from the accumulator it has just updated. -/
theorem out_last (c : Dev nD) (i : grid0.Coords) (a2 : Memref sig .tc .vmem S4096x128 .f32) (h2 : a2.IsWhole)
    (a3 : Memref sig .tc .vmem S4096x128 .f32) (h3 : a3.IsWhole) (a4 : Memref sig .tc .vmem S8x128 .f32) (h4 : a4.IsWhole)
    (a5 : Memref sig .tc .vmem S1x128 .f32) (h5 : a5.IsWhole) (hc0 : ¬cond0_0 i) (hc1 : cond0_1 i)
    (x0 x1 : Vec F S4096x128 .f32) (xs0 : Vec F S1x128 .f32) :
    out0_C_2 c i a2 h2 a3 h3 a4 h4 a5 h5 hc0 hc1 x0 x1 xs0 = k0_pay3 (k0_pay2 x1 x0 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz, View.readCov_unit_zero (S := S1x128) _ hz]
  simp only [View.readAt_eq_ld, h2.read_unread, h3.read_unread, h5.read_unread, View.ld_unit_zero (S := S4096x128) hz,
    View.ld_unit_zero (S := S1x128) hz]

end Cert.KernelIdeal.Pieces

end
-- ==== Proof.LibSumSplit.lean ====
/-
  A sum over `a * b` consecutive naturals split into `a` blocks of `b`: position `b * q + r` is block `q`,
  offset `r`. In any additive commutative monoid (the extended reals among them: no finiteness is used).
-/
import Mathlib.Algebra.BigOperators.Intervals
import Mathlib.Algebra.BigOperators.Fin

namespace Cert.LibSumSplit

variable {M : Type*} [AddCommMonoid M]

/-- `∑ n < a * b, g n = ∑ q < a, ∑ r < b, g (b * q + r)`. -/
theorem sum_range_mul (g : ℕ → M) (b : ℕ) : ∀ a : ℕ,
    ∑ n ∈ Finset.range (a * b), g n = ∑ q ∈ Finset.range a, ∑ r ∈ Finset.range b, g (b * q + r)
  | 0 => by simp
  | a + 1 => by
    rw [Nat.succ_mul, Finset.sum_range_add, sum_range_mul g b a, Finset.sum_range_succ, Nat.mul_comm a b]

/-- A sum over `Fin n` of a function given on all naturals is the sum over `range n`. -/
theorem sum_fin_eq_range (g : ℕ → M) (n : ℕ) : ∑ k : Fin n, g k.val = ∑ k ∈ Finset.range n, g k :=
  (Finset.sum_range g).symm

/-- A sum over 8192 positions, grouped as 2 planes of 16 steps of 256 lanes: position 256·(16·p + s) + r. -/
theorem sum_split_2_16_256 (T : ℕ → M) :
    ∑ p : Fin 2, ∑ s ∈ Finset.range 16, ∑ r : Fin 256, T (256 * (16 * p.val + s) + r.val) = ∑ b : Fin 8192, T b.val := by
  have h1 : ∑ n ∈ Finset.range 8192, T n = ∑ q ∈ Finset.range 32, ∑ r ∈ Finset.range 256, T (256 * q + r) :=
    sum_range_mul T 256 32
  have h2 : ∑ q ∈ Finset.range 32, ∑ r ∈ Finset.range 256, T (256 * q + r)
      = ∑ p ∈ Finset.range 2, ∑ s ∈ Finset.range 16, ∑ r ∈ Finset.range 256, T (256 * (16 * p + s) + r) :=
    sum_range_mul (fun q => ∑ r ∈ Finset.range 256, T (256 * q + r)) 16 2
  rw [sum_fin_eq_range T 8192, h1, h2,
    ← sum_fin_eq_range (fun p => ∑ s ∈ Finset.range 16, ∑ r ∈ Finset.range 256, T (256 * (16 * p + s) + r)) 2]
  refine Finset.sum_congr rfl fun p _ => Finset.sum_congr rfl fun s _ => ?_
  exact sum_fin_eq_range (fun r => T (256 * (16 * p.val + s) + r)) 256

end Cert.LibSumSplit
-- ==== Proof.Spec.lean ====
/-
  The arithmetic shared by the two programs, with no program in sight.

  * `err a b`: one element's squared feedback error ((if a < 0 and b < 0 then b − a else a − b) − a)², a the target and
    b the source. On the extended reals it is a square, hence nonnegative.
  * A table of 401408 rows by 128 lanes is summed either all at once, or lane by lane in two halves of 49 blocks of
    4096 rows. The running lane total `acc` restarts at the first block of a half and otherwise adds the next block's
    column sum; after the last block of half p it is the sum of that half's 49 column sums.
  * Sums on the extended reals do not depend on grouping or order, and a quotient by a positive real distributes over
    a sum of two nonnegative terms: so (total)/N = (first half)/N + (second half)/N.
-/
import Idealize.ShloMosaic.PureOps.Ideal.Laws
import Idealize.ShloMosaic.Lib.ValueIdx
import proofs.«158376_j38955353375166_2_alg».proof.Proof.LibSumSplit

noncomputable section

open scoped BigOperators
open Idealize.ShloMosaic Idealize.ShloMosaic.ValueIdx

namespace Cert.Spec

/-! ## One element -/

/-- The squared feedback error of one element, at any float instance: `a` is the target, `b` the source. -/
def err {F : FTy → Type} [FloatOps F] (a b : F .f32) : F .f32 :=
  FloatOps.mulf
    (FloatOps.subf (Scalar.select (IntOp.andi (FloatOps.cmpf .olt a (FloatOps.ofBits .f32 0x00000000#32))
        (FloatOps.cmpf .olt b (FloatOps.ofBits .f32 0x00000000#32))) (FloatOps.subf b a) (FloatOps.subf a b)) a)
    (FloatOps.subf (Scalar.select (IntOp.andi (FloatOps.cmpf .olt a (FloatOps.ofBits .f32 0x00000000#32))
        (FloatOps.cmpf .olt b (FloatOps.ofBits .f32 0x00000000#32))) (FloatOps.subf b a) (FloatOps.subf a b)) a)

/-- A product of an extended real with itself is nonnegative. -/
theorem mul_self_nonneg (d : EReal) : 0 ≤ d * d := by
  rcases le_total 0 d with h | h
  · exact EReal.mul_nonneg h h
  · exact EReal.mul_nonneg_iff.mpr (Or.inr ⟨h, h⟩)

/-- On the extended reals the squared error is nonnegative. -/
theorem err_nonneg (a b : Ideal .f32) : (0 : EReal) ≤ err (F := Ideal) a b := mul_self_nonneg _

/-! ## The running lane total -/

section Acc

variable {M : Type*} [AddCommMonoid M]

/-- The lane total after block `n`: the column sums of the blocks of `n`'s half up to `n`. -/
def acc (col : ℕ → M) (n : ℕ) : M := ∑ s ∈ Finset.range (n % 49 + 1), col (n - n % 49 + s)

/-- At the first block of a half the total is that block's column sum. -/
theorem acc_first (col : ℕ → M) (n : ℕ) (h : n % 49 = 0) : acc col n = col n := by
  unfold acc; rw [h]; simp

/-- At any other block it is the previous total plus the block's column sum. -/
theorem acc_next (col : ℕ → M) (n : ℕ) (h : ¬(n + 1) % 49 = 0) : acc col (n + 1) = acc col n + col (n + 1) := by
  have h1 : (n + 1) % 49 = n % 49 + 1 := by omega
  have h2 : n + 1 - (n + 1) % 49 = n - n % 49 := by omega
  unfold acc
  rw [h2, h1, Finset.sum_range_succ]
  congr 2
  have := Nat.mod_le n 49
  omega

/-- After the last block of half `p` it is the sum of the half's 49 column sums. -/
theorem acc_last (col : ℕ → M) (n p : ℕ) (h : n = 49 * p + 48) : acc col n = ∑ s ∈ Finset.range 49, col (49 * p + s) := by
  subst h
  have h1 : (49 * p + 48) % 49 = 48 := by omega
  unfold acc
  rw [h1, show 49 * p + 48 - 48 = 49 * p from by omega]

end Acc

/-! ## The table, by natural coordinates -/

/-- Entry (n, l) of a 401408 × 128 table, zero outside it. -/
def cell (X : (⟨2, ![401408, 128]⟩ : Shape).Idx → EReal) (n l : ℕ) : EReal :=
  if h : n < 401408 ∧ l < 128 then X (ix2 ⟨n, h.1⟩ ⟨l, h.2⟩) else 0

theorem cell_of_lt (X : (⟨2, ![401408, 128]⟩ : Shape).Idx → EReal) (n l : ℕ) (hn : n < 401408) (hl : l < 128) :
    cell X n l = X (ix2 ⟨n, hn⟩ ⟨l, hl⟩) := dif_pos ⟨hn, hl⟩

theorem cell_nonneg (X : (⟨2, ![401408, 128]⟩ : Shape).Idx → EReal) (hX : ∀ i, 0 ≤ X i) (n l : ℕ) : 0 ≤ cell X n l := by
  unfold cell; split
  · exact hX _
  · exact le_refl _

/-- Block `q`'s column sum in lane `l`: its 4096 rows of the table. -/
def col (X : (⟨2, ![401408, 128]⟩ : Shape).Idx → EReal) (l q : ℕ) : EReal := ∑ r : Fin 4096, cell X (4096 * q + r.val) l

theorem col_nonneg (X : (⟨2, ![401408, 128]⟩ : Shape).Idx → EReal) (hX : ∀ i, 0 ≤ X i) (l q : ℕ) : 0 ≤ col X l q :=
  Finset.sum_nonneg fun _ _ => cell_nonneg X hX _ _

/-- Half `p`'s total: over the lanes, the 49 column sums of its blocks. -/
def half (X : (⟨2, ![401408, 128]⟩ : Shape).Idx → EReal) (p : ℕ) : EReal :=
  ∑ l : Fin 128, ∑ s ∈ Finset.range 49, col X l.val (49 * p + s)

theorem half_nonneg (X : (⟨2, ![401408, 128]⟩ : Shape).Idx → EReal) (hX : ∀ i, 0 ≤ X i) (p : ℕ) : 0 ≤ half X p :=
  Finset.sum_nonneg fun _ _ => Finset.sum_nonneg fun _ _ => col_nonneg X hX _ _

/-- The whole table's sum is the two halves'. -/
theorem total_eq_halves (X : (⟨2, ![401408, 128]⟩ : Shape).Idx → EReal) : ∑ i, X i = half X 0 + half X 1 := by
  rw [sum_idx2, Finset.sum_comm]
  unfold half
  rw [← Finset.sum_add_distrib]
  refine Finset.sum_congr rfl fun l _ => ?_
  have e1 : ∑ a : Fin 401408, X (ix2 a l) = ∑ a : Fin 401408, cell X a.val l.val :=
    Finset.sum_congr rfl fun a _ => (cell_of_lt X a.val l.val a.isLt l.isLt).symm
  rw [e1, Cert.LibSumSplit.sum_fin_eq_range (fun n => cell X n l.val) 401408,
    Cert.LibSumSplit.sum_range_mul (fun n => cell X n l.val) 4096 98,
    Cert.LibSumSplit.sum_range_mul (fun q => ∑ r ∈ Finset.range 4096, cell X (4096 * q + r) l.val) 49 2,
    Finset.sum_range_succ, Finset.sum_range_one]
  have e2 : ∀ q : ℕ, ∑ r ∈ Finset.range 4096, cell X (4096 * q + r) l.val = col X l.val q := fun q =>
    (Cert.LibSumSplit.sum_fin_eq_range (fun r => cell X (4096 * q + r) l.val) 4096).symm
  simp only [e2]

/-! ## The quotient -/

/-- The element count 51380224 = 1.53125 · 2²⁵ as the f32 word both programs divide by. -/
theorem ofBits_count : Ideal.ofBits .f32 0x4C440000#32 = ((51380224 : ℝ) : EReal) := by
  simp [Ideal.ofBits, Ideal.ieee, -EReal.coe_mul]; norm_num

/-- The mean over the whole table, computed from zero, is the sum of the two halves' quotients: the halves are
    nonnegative, and a product with a fixed factor distributes over a sum of nonnegative terms. -/
theorem mean_eq (X : (⟨2, ![401408, 128]⟩ : Shape).Idx → EReal) (hX : ∀ i, 0 ≤ X i) :
    Ideal.div (Ideal.ofBits .f32 0x00000000#32 + ∑ i, X i) (Ideal.ofBits .f32 0x4C440000#32)
      = Ideal.div (half X 0) (Ideal.ofBits .f32 0x4C440000#32) + Ideal.div (half X 1) (Ideal.ofBits .f32 0x4C440000#32) := by
  rw [Ideal.ofBits_zero_f32, zero_add, ofBits_count, Ideal.div_coe (by norm_num), Ideal.div_coe (by norm_num),
    Ideal.div_coe (by norm_num), total_eq_halves,
    EReal.right_distrib_of_nonneg (half_nonneg X hX 0) (half_nonneg X hX 1)]

end Cert.Spec

end
-- ==== Proof.KernelPayload.lean ====
/-
  The body's three stored values read at one position, on the extended reals.

  * the zero row is the word +0.0 in every lane;
  * the updated accumulator in lane l is the old accumulator in lane l plus the sum, over the block's 4096 rows, of the
    squared error of (target, source) at (row, l);
  * the output block holds, at every position, the lane sum of the accumulator divided by the element count.
-/
import proofs.«158376_j38955353375166_2_alg».proof.Proof.Gen.KernelIdeal.Skeleton
import proofs.«158376_j38955353375166_2_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-- The zero row. -/
theorem zero_row_apply (j : S1x128.Idx) : k0_pay1 (F := Ideal) j = Ideal.ofBits .f32 0x00000000#32 := by
  unfold k0_pay1
  simp only [shapeCast_self]
  rfl

/-- A sum down the rows of a 4096 × 128 block, read in lane l. -/
theorem column_sum (v : FVec Ideal S4096x128 .f32) (h : S4096x128.Reduces [0] S128)
    (hacc : (0x00000000#32 : BitVec 32) = 0x00000000#32) (l : Fin 128) :
    multiReduction (F := Ideal) .add [0] S128 v 0x00000000#32 h (.inl rfl) hacc (ix1 l) = ∑ k : Fin 4096, v (ix2 k l) := by
  refine (Ideal.multiReduction_add_single v 0x00000000#32 h (.inl rfl) hacc (ix1 l)).trans ?_
  refine Finset.sum_congr rfl fun k _ => congrArg v ?_
  funext a
  apply Fin.ext
  match a with
  | ⟨0, _⟩ => rfl
  | ⟨1, _⟩ => rfl

/-- A sum along the lanes of a 1 × 128 row. -/
theorem lane_sum (v : FVec Ideal S1x128 .f32) (h : S1x128.Reduces [1] S1)
    (hacc : (0x00000000#32 : BitVec 32) = 0x00000000#32) :
    multiReduction (F := Ideal) .add [1] S1 v 0x00000000#32 h (.inl rfl) hacc (ix1 (0 : Fin 1)) = ∑ l : Fin 128, v (ix2 (0 : Fin 1) l) := by
  refine (Ideal.multiReduction_add_single v 0x00000000#32 h (.inl rfl) hacc (ix1 (0 : Fin 1))).trans ?_
  refine Finset.sum_congr rfl fun k _ => congrArg v ?_
  funext a
  apply Fin.ext
  match a with
  | ⟨0, _⟩ => rfl
  | ⟨1, _⟩ => rfl

/-- The updated accumulator in lane l: `x1` the target block, `x0` the source block, `xs` the old accumulator. -/
theorem acc_apply (x1 x0 : FVec Ideal S4096x128 .f32) (xs : FVec Ideal S1x128 .f32) (l : Fin 128) :
    k0_pay2 (F := Ideal) x1 x0 xs (ix2 (0 : Fin 1) l)
      = xs (ix2 (0 : Fin 1) l) + ∑ k : Fin 4096, Cert.Spec.err (F := Ideal) (x1 (ix2 k l)) (x0 (ix2 k l)) := by
  unfold k0_pay2
  simp only [shapeCast_self]
  refine congrArg (xs (ix2 (0 : Fin 1) l) + ·) ?_
  refine (shapeCast_apply _ shapeCasts_S128_S1x128 (ix2 (0 : Fin 1) l) (ix1 l) ?_).trans ?_
  · rw [Shape.rowMajor_val_one, Shape.rowMajor_val_two]
    show l.val = 0 * 128 + l.val
    omega
  · refine (column_sum _ _ _ l).trans ?_
    rfl

/-- The output block at any position: the accumulator's lane sum over the element count. -/
theorem out_apply (v : FVec Ideal S1x128 .f32) (a : Fin 8) (b : Fin 128) :
    k0_pay3 (F := Ideal) v (ix2 a b)
      = Ideal.div (∑ l : Fin 128, v (ix2 (0 : Fin 1) l)) (Ideal.ofBits .f32 0x4C440000#32) := by
  unfold k0_pay3
  simp only [shapeCast_self]
  refine (broadcastTo_apply _ broadcasts_S1x1_S8x128 (ix2 a b) (ix2 (0 : Fin 1) (0 : Fin 1)) ?_).trans ?_
  · intro a'
    match a' with
    | ⟨0, _⟩ => rfl
    | ⟨1, _⟩ => rfl
  · refine congrArg (Ideal.div · (Ideal.ofBits .f32 0x4C440000#32)) ?_
    refine (shapeCast_apply _ shapeCasts_S1_S1x1 (ix2 (0 : Fin 1) (0 : Fin 1)) (ix1 (0 : Fin 1)) ?_).trans ?_
    · rw [Shape.rowMajor_val_one, Shape.rowMajor_val_two]
      rfl
    · exact lane_sum _ _ _

end Cert.KernelIdeal.Payload

end
-- ==== Proof.KernelAcc.lean ====
/-
  The accumulator across the grid, on the extended reals.

  The two flattened inputs, as the region finds them, give a 401408 × 128 table of squared errors. Step t of the grid
  reads rows 4096·t … 4096·t + 4095 of both inputs, so the column sums it adds are the table's block t. By induction on
  the step, the accumulator after step t is the running lane total of the specification; at the last step of a half
  the output block holds that half's total divided by the element count.
-/
import proofs.«158376_j38955353375166_2_alg».proof.Proof.KernelPieces
import proofs.«158376_j38955353375166_2_alg».proof.Proof.KernelPayload

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen

variable (m : (ℓ : Loc nD τ sig) → Buf (Elt Ideal) ℓ)

/-- The table of squared errors over the flattened inputs: `main_v1` is the flattened target, `main_v0` the flattened source. -/
def tbl (c : Dev nD) : S401408x128.Idx → EReal :=
  fun i => Cert.Spec.err (F := Ideal) (V m c main_v1 i) (V m c main_v0 i)

theorem tbl_nonneg (c : Dev nD) (i : S401408x128.Idx) : 0 ≤ tbl m c i := Cert.Spec.err_nonneg _ _

/-- Both input windows are at block row t, block column 0, at step t. -/
theorem idx_src : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_tgt : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- The source block of step t at (k, l) is the flattened source at row 4096·t + k. -/
theorem src_apply (c : Dev nD) (t : Fin cfg0.N) (k : Fin 4096) (l : Fin 128) (h : 4096 * t.val + k.val < 401408) :
    (iblk m c 0 t : Vec Ideal S4096x128 .f32) (ix2 k l) = V m c main_v0 (ix2 ⟨4096 * t.val + k.val, h⟩ l) := by
  unfold iblk
  rw [View.read_apply]
  show V m c main_v0 _ = V m c main_v0 _
  congr 1
  funext a
  apply Fin.ext
  match a with
  | ⟨0, _⟩ => show win0_0.index t 0 * 4096 + 1 * k.val = 4096 * t.val + k.val; rw [(idx_src t).1]; omega
  | ⟨1, _⟩ => show win0_0.index t 1 * 128 + 1 * l.val = l.val; rw [(idx_src t).2]; omega

/-- The target block of step t at (k, l) is the flattened target at row 4096·t + k. -/
theorem tgt_apply (c : Dev nD) (t : Fin cfg0.N) (k : Fin 4096) (l : Fin 128) (h : 4096 * t.val + k.val < 401408) :
    (iblk m c 1 t : Vec Ideal S4096x128 .f32) (ix2 k l) = V m c main_v1 (ix2 ⟨4096 * t.val + k.val, h⟩ l) := by
  unfold iblk
  rw [View.read_apply]
  show V m c main_v1 _ = V m c main_v1 _
  congr 1
  funext a
  apply Fin.ext
  match a with
  | ⟨0, _⟩ => show win0_1.index t 0 * 4096 + 1 * k.val = 4096 * t.val + k.val; rw [(idx_tgt t).1]; omega
  | ⟨1, _⟩ => show win0_1.index t 1 * 128 + 1 * l.val = l.val; rw [(idx_tgt t).2]; omega

/-- The column sums step t adds are the table's block t. -/
theorem block_col (c : Dev nD) (t : Fin cfg0.N) (l : Fin 128) :
    ∑ k : Fin 4096, Cert.Spec.err (F := Ideal) ((iblk m c 1 t : Vec Ideal S4096x128 .f32) (ix2 k l))
        ((iblk m c 0 t : Vec Ideal S4096x128 .f32) (ix2 k l))
      = Cert.Spec.col (tbl m c) l.val t.val := by
  have hN : t.val < 98 := lt_of_lt_of_eq t.isLt (show cfg0.N = 98 from N_0)
  unfold Cert.Spec.col
  refine Finset.sum_congr rfl fun k _ => ?_
  have h : 4096 * t.val + k.val < 401408 := by have := k.isLt; omega
  rw [Cert.Spec.cell_of_lt (tbl m c) _ _ h l.isLt, src_apply m c t k l h, tgt_apply m c t k l h]
  rfl

/-- What one step makes of the accumulator `xs`, lane by lane. -/
theorem step_apply (c : Dev nD) (t : Fin cfg0.N) (xs : Vec Ideal S1x128 .f32) (l : Fin 128) :
    k0_pay2 (F := Ideal) (iblk m c 1 t) (iblk m c 0 t) xs (ix2 (0 : Fin 1) l)
      = xs (ix2 (0 : Fin 1) l) + Cert.Spec.col (tbl m c) l.val t.val :=
  (Cert.KernelIdeal.Payload.acc_apply (iblk m c 1 t) (iblk m c 0 t) xs l).trans
    (congrArg (xs (ix2 (0 : Fin 1) l) + ·) (block_col m c t l))

/-- The accumulator after step n is the running lane total. -/
theorem acc_eq (c : Dev nD) : ∀ (n : ℕ) (hn : n < cfg0.N) (l : Fin 128),
    (outsAt0 m c n hn).2 (ix2 (0 : Fin 1) l) = Cert.Spec.acc (Cert.Spec.col (tbl m c) l.val) n
  | 0, hn, l => by
    rw [outsAt0_A m c ⟨0, hn⟩ rfl (show ¬(0 : ℕ) % 49 = 48 by decide)]
    dsimp only
    rw [Cert.KernelIdeal.Pieces.acc_first, step_apply m c ⟨0, hn⟩ _ l, Cert.KernelIdeal.Payload.zero_row_apply,
      Ideal.ofBits_zero_f32, zero_add, Cert.Spec.acc_first _ 0 rfl]
  | n + 1, hn, l => by
    have hN : n + 1 < 98 := lt_of_lt_of_eq hn (show cfg0.N = 98 from N_0)
    by_cases h0 : (n + 1) % 49 = 0
    · have h1 : ¬(n + 1) % 49 = 48 := by omega
      rw [outsAt0_A m c ⟨n + 1, hn⟩ h0 h1]
      dsimp only
      rw [Cert.KernelIdeal.Pieces.acc_first, step_apply m c ⟨n + 1, hn⟩ _ l, Cert.KernelIdeal.Payload.zero_row_apply,
        Ideal.ofBits_zero_f32, zero_add, Cert.Spec.acc_first _ (n + 1) h0]
    · by_cases h1 : (n + 1) % 49 = 48
      · rw [outsAt0_C m c ⟨n + 1, hn⟩ h0 h1]
        dsimp only
        rw [Cert.KernelIdeal.Pieces.acc_last, step_apply m c ⟨n + 1, hn⟩ _ l, Cert.Spec.acc_next _ n h0]
        exact congrArg (· + _) (acc_eq c n (Nat.lt_of_succ_lt hn) l)
      · rw [outsAt0_B m c ⟨n + 1, hn⟩ h0 h1]
        dsimp only
        rw [Cert.KernelIdeal.Pieces.acc_mid, step_apply m c ⟨n + 1, hn⟩ _ l, Cert.Spec.acc_next _ n h0]
        exact congrArg (· + _) (acc_eq c n (Nat.lt_of_succ_lt hn) l)

/-- At the last step of a half the output block holds, everywhere, that half's total over the element count. -/
theorem out_eq (c : Dev nD) (t : Fin cfg0.N) (h1 : t.val % 49 = 48) (j : S8x128.Idx) :
    (outsAt0 m c t.val t.isLt).1 j
      = Ideal.div (Cert.Spec.half (tbl m c) (t.val / 49)) (Ideal.ofBits .f32 0x4C440000#32) := by
  have h0 : ¬t.val % 49 = 0 := by omega
  have e2 : ∀ l : Fin 128, (outsAt0 m c t.val t.isLt).2 (ix2 (0 : Fin 1) l)
      = ∑ s ∈ Finset.range 49, Cert.Spec.col (tbl m c) l.val (49 * (t.val / 49) + s) := fun l => by
    rw [acc_eq m c t.val t.isLt l]
    exact Cert.Spec.acc_last _ t.val (t.val / 49) (by omega)
  have e1 : (outsAt0 m c t.val t.isLt).1 = k0_pay3 (F := Ideal) (outsAt0 m c t.val t.isLt).2 := by
    rw [outsAt0_C m c t h0 h1]
    dsimp only
    rw [Cert.KernelIdeal.Pieces.out_last, Cert.KernelIdeal.Pieces.acc_last]
  obtain ⟨a, b, rfl⟩ : ∃ (a : Fin 8) (b : Fin 128), j = ix2 a b := ⟨j 0, j 1, eq_ix2 j⟩
  rw [e1]
  refine (Cert.KernelIdeal.Payload.out_apply _ a b).trans ?_
  unfold Cert.Spec.half
  exact congrArg (Ideal.div · _) (Finset.sum_congr rfl fun l _ => e2 l)

end Cert.KernelIdeal.Acc

end
-- ==== Proof.KernelArray.lean ====
/-
  The kernel's result array on the extended reals.

  The 16 × 128 result array is written twice: at the last step of the first half into rows 0–7 and at the last step of
  the second half into rows 8–15, each time with that half's total over the element count in every position. So it
  ends holding, at row i, the quotient of half ⌊i/8⌋.
-/
import proofs.«158376_j38955353375166_2_alg».proof.Proof.KernelAcc
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Acc

variable (m : (ℓ : Loc nD τ sig) → Buf (Elt Ideal) ℓ) (ρ : Dev nD → PrngReg)

/-- Half p's total over the element count. -/
def quot (c : Dev nD) (p : ℕ) : EReal := Ideal.div (Cert.Spec.half (tbl m c) p) (Ideal.ofBits .f32 0x4C440000#32)

/-- The result array: row i holds the quotient of half ⌊i/8⌋. -/
def arr (c : Dev nD) : Vec Ideal S16x128 .f32 := fun i => quot m c ((i 0).val / 8)

/-- The output window at step t is at block row ⌊t/49⌋, block column 0, and its blocks are whole 8 × 128 blocks. -/
theorem idx_out : ∀ t : Fin cfg0.N, win0_2.index t (0 : Fin 2) = t.val / 49 ∧ win0_2.index t (1 : Fin 2) = 0
      ∧ win0_2.xsize (grid0.coords t) (0 : Fin 2) = 8 ∧ win0_2.xsize (grid0.coords t) (1 : Fin 2) = 128 :=
  (by decide +kernel : ∀ t : Fin grid0.N, win0_2.index t (0 : Fin 2) = t.val / 49 ∧ win0_2.index t (1 : Fin 2) = 0
      ∧ win0_2.xsize (grid0.coords t) (0 : Fin 2) = 8 ∧ win0_2.xsize (grid0.coords t) (1 : Fin 2) = 128)

/-- What a writing step writes back is its block of the result array. -/
theorem flushed_eq (c : Dev nD) (t : Fin cfg0.N) (hf : (cfg0.win 2).flush t = true) :
    (dats m 0 c).flushed 2 t = ((cfg0.win 2).blk t).view.read (Elt Ideal) (arr m c) := by
  have h1 : t.val % 49 = 48 := (flush0_2 t).mp hf
  show (cfg0.win 2).cut (grid0.coords t) ((dats m 0 c).after 2 t) = _
  rw [after0_2]
  funext y
  rw [View.read_apply]
  show (outsAt0 m c t.val t.isLt).1 (win0_2.xinj (grid0.coords t) y) = arr m c (((cfg0.win 2).blk t).view.emb y)
  rw [out_eq m c t h1]
  unfold arr quot
  have hy : (y 0).val < 8 := lt_of_lt_of_eq (y 0).isLt (idx_out t).2.2.1
  have e : ((((cfg0.win 2).blk t).view.emb y) 0).val / 8 = t.val / 49 := by
    show (win0_2.index t 0 * 8 + 1 * (y 0).val) / 8 = t.val / 49
    rw [(idx_out t).1]
    omega
  rw [e]

/-- The two writing steps' blocks cover the result array. -/
theorem cover (c : Dev nD) (i : S16x128.Idx) :
    ∃ t : Fin cfg0.N, (cfg0.win 2).flush t = true ∧ i ∈ ((cfg0.win 2).blk t).view.set := by
  have hN : cfg0.N = 98 := N_0
  have h0 : (i 0 : Nat) < 16 := (i 0).isLt
  have h1 : (i 1 : Nat) < 128 := (i 1).isLt
  let t : Fin cfg0.N := ⟨49 * ((i 0).val / 8) + 48, by rw [hN]; omega⟩
  have ht : t.val = 49 * ((i 0).val / 8) + 48 := rfl
  refine ⟨t, (flush0_2 t).mpr (by rw [ht]; omega), ?_⟩
  show i ∈ ((View.whole main_v2).slice (win0_2.rect t)).set
  rw [View.set_slice_whole, Rect.mem_set_unit]
  intro a
  match a with
  | ⟨0, _⟩ =>
    show win0_2.index t 0 * 8 ≤ (i 0 : Nat) ∧ (i 0 : Nat) < win0_2.index t 0 * 8 + win0_2.xsize (grid0.coords t) 0
    rw [(idx_out t).1, (idx_out t).2.2.1, ht]; omega
  | ⟨1, _⟩ =>
    show win0_2.index t 1 * 128 ≤ (i 1 : Nat) ∧ (i 1 : Nat) < win0_2.index t 1 * 128 + win0_2.xsize (grid0.coords t) 1
    rw [(idx_out t).2.1, (idx_out t).2.2.2]; omega

/-- So the result array ends as `arr`. -/
theorem final (c : Dev nD) : (dats m 0 c).arrAt 2 cfg0.N = arr m c :=
  (dats m 0 c).arrAt_eq_of_cover 2 (arr m c) (flushed_eq m c) (cover c)

end Cert.KernelIdeal.Result

end
-- ==== Proof.KernelValue.lean ====
/-
  The kernel's result on the extended reals: the host's last lines add entry (0,0) and entry (8,0) of the result array,
  that is, the first half's quotient and the second half's.
-/
import proofs.«158376_j38955353375166_2_alg».proof.Proof.KernelArray

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Acc

variable (m : (ℓ : Loc nD τ sig) → Buf (Elt Ideal) ℓ) (ρ : Dev nD → PrngReg)

/-- Rows 0 and 8 of the result array hold the two quotients. -/
theorem arr_row0 (c : Dev nD) : arr m c (ix2 (0 : Fin 16) (0 : Fin 128)) = quot m c 0 := rfl
theorem arr_row8 (c : Dev nD) : arr m c (ix2 (8 : Fin 16) (0 : Fin 128)) = quot m c 1 := rfl

/-- A 1 × 1 slice at (r, 0) of a 16 × 128 array, reshaped to a scalar, is the entry (r, 0). -/
theorem entry_read (X : Vec Ideal S16x128 .f32) (r : Fin 16) (off : Fin 2 → Nat) (hoff : off = ![r.val, 0])
    (h : S16x128.Slices off S1x1) (hc : S1x1.ShapeCasts S_) (j : S_.Idx) :
    shapeCast S_ (extractStridedSlice S1x1 off X h) hc j = X (ix2 r (0 : Fin 128)) := by
  subst hoff
  have hpos : (S1x1.rowMajor (ix2 (0 : Fin 1) (0 : Fin 1))).val = (S_.rowMajor j).val := by
    have h1 := (S_.rowMajor j).isLt
    have h2 := (S1x1.rowMajor (ix2 (0 : Fin 1) (0 : Fin 1))).isLt
    change _ < 1 at h1
    change _ < 1 at h2
    omega
  refine (shapeCast_apply _ hc j (ix2 (0 : Fin 1) (0 : Fin 1)) hpos).trans ?_
  refine extractStridedSlice_apply _ X h (ix2 (0 : Fin 1) (0 : Fin 1)) (ix2 r (0 : Fin 128)) (fun a => ?_)
  match a with
  | ⟨0, _⟩ => rfl
  | ⟨1, _⟩ => rfl

/-- The host's last lines: entry (0,0) plus entry (8,0) of the result array. -/
theorem tail_eq (c : Dev nD) :
    Pipeline.afterTail₀ cfgs (dats m) 0 (V0 m) [hostOps1] c main_v7 = fun _ => quot m c 0 + quot m c 1 := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.devRef .tc main_v2)
      = arr m c := (Pipeline.withArrays_arr spec0 launch0.win.arr_inj c _ _ 2).trans (final m c)
  rw [hw]
  funext j
  exact congrArg₂ (· + ·)
    ((entry_read (arr m c) (0 : Fin 16) ![0, 0] rfl slices_S16x128_S1x1_0_0 shapeCasts_S1x1_S_ j).trans (arr_row0 m c))
    ((entry_read (arr m c) (8 : Fin 16) ![8, 0] rfl slices_S16x128_S1x1_8_0 shapeCasts_S1x1_S_ j).trans (arr_row8 m c))

/-- The run, read: the result is the sum of the two halves' quotients, and the arguments end unchanged. -/
theorem run : θ_run defs (onTc (τ := τ) (main (F := Ideal))) ⟨m, fun _ => 0, ρ⟩ fun r => ∀ c : Dev nD,
      r.2.mem ((c.tc : Thread nD τ).loc main_v7) = (fun _ => quot m c 0 + quot m c 1)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.LibTotalSum.lean ====
import Idealize.ShloMosaic.PureOps.Ideal.Laws

/-! # Total sums at the extended reals

Two facts about summing every element of a vector, for any shapes. A reshape is a bijection of positions, so it does
not change the sum of all elements. And a float add-reduction over every axis but unit ones, started from the zero
pattern, is the sum of all elements; stated here with the accumulator's side conditions spelt the way a printed kernel
body carries them (the zero word equal to itself), so that the statement meets such a body's term as it stands. -/

noncomputable section

open scoped BigOperators
open Idealize.ShloMosaic

namespace Cert.LibTotalSum

/-- A sum over a reshaped vector is the sum over the vector: a reshape is a bijection of positions. -/
theorem sum_shapeCast {s t : Shape} {M : Type} [AddCommMonoid M] (v : s.Idx → M) (h : s.ShapeCasts t) :
    ∑ j : t.Idx, shapeCast t v h j = ∑ i : s.Idx, v i :=
  Equiv.sum_comp (Shape.reshapeEquiv h) v

/-- An f32 add-reduction into a shape all of whose axes have size one, from the zero pattern, read at the extended
    reals at its one index, is the sum of every element of the source. -/
theorem multiReduction_add_total_f32 {s t : Shape} {axes : List (Fin s.rank)} (src : FVec Ideal s .f32)
    (h : s.Reduces axes t) (ht : ∀ b, t.size b = 1) (j : t.Idx) :
    multiReduction (F := Ideal) .add axes t src 0x00000000#32 h (.inl rfl) rfl j = ∑ i : s.Idx, src i :=
  Ideal.multiReduction_add_total src 0x00000000#32 h ht (.inl rfl) rfl j

end Cert.LibTotalSum

end
-- ==== Proof.RefValue.lean ====
/-
  The reference's result on the extended reals: it flattens both inputs to one axis, forms the squared error of every
  element (first argument the source, second the target), sums them from zero and divides by the element count.
  A flattening only renames positions, so the sum over the flattened axis is the sum over the original four.
-/
import proofs.«158376_j38955353375166_2_alg».proof.Proof.Gen.ReferenceIdeal.Read
import proofs.«158376_j38955353375166_2_alg».proof.Proof.Spec
import proofs.«158376_j38955353375166_2_alg».proof.Proof.LibTotalSum

noncomputable section

open scoped BigOperators
open Idealize.ShloMosaic Idealize.ShloMosaic.ValueIdx

namespace Cert.ReferenceIdeal.RefValue

open Cert.ReferenceIdeal Cert.ReferenceIdeal.Gen Cert.ReferenceIdeal.Read

/-- The squared errors over the original four axes: `x0` the source, `x1` the target. -/
def errs (x0 x1 : S64x256x56x56.Idx → EReal) : S64x256x56x56.Idx → EReal :=
  fun i => Cert.Spec.err (F := Ideal) (x1 i) (x0 i)

/-- The reference's vector of squared errors is the flattening of `errs`. -/
theorem sq_eq (x0 x1 : (⟨S64x256x56x56, .f32⟩ : BufTy).Contents (Elt Ideal)) (j : S51380224.Idx) :
    val_main_v11 (F := Ideal) x0 x1 j = shapeCast S51380224 (errs x0 x1) Facts₀.shapeCasts_S64x256x56x56_S51380224 j := by
  have e : shapeCast S51380224 (errs x0 x1) Facts₀.shapeCasts_S64x256x56x56_S51380224 j = errs x0 x1 (idx_main_v0 j) :=
    val_main_v0_apply (F := Ideal) (errs x0 x1) j
  rw [e]
  simp only [val_main_v11_apply, val_main_v10_apply, val_main_v9_apply, val_main_v6_apply, val_main_v3_apply,
    val_main_v5_apply, val_main_v7_apply, val_main_v8_apply, val_main_v0_apply, val_main_v1_apply, val_main_v2_apply,
    val_main_v4_apply, val_main_cst_apply, val_main_cst_0_apply]
  rfl

/-- The reference's result: the sum of all squared errors, from zero, over the element count. -/
theorem result_apply (x0 x1 : (⟨S64x256x56x56, .f32⟩ : BufTy).Contents (Elt Ideal)) (j : S_.Idx) :
    val_main_v13 (F := Ideal) x0 x1 j
      = Ideal.div (Ideal.ofBits .f32 0x00000000#32 + ∑ i, errs x0 x1 i) (Ideal.ofBits .f32 0x4C440000#32) := by
  rw [val_main_v13_apply, val_main_v12_apply, val_main_cst_1_apply, val_main_cst_2_apply]
  have e : ∑ k : S51380224.Idx, val_main_v11 (F := Ideal) x0 x1 k = ∑ i, errs x0 x1 i := by
    rw [← Cert.LibTotalSum.sum_shapeCast (errs x0 x1) Facts₀.shapeCasts_S64x256x56x56_S51380224]
    exact Finset.sum_congr rfl fun k _ => sq_eq x0 x1 k
  rw [e]
  rfl

end Cert.ReferenceIdeal.RefValue

end
-- ==== Proof.Bridge.lean ====
/-
  The two results are one number.

  The kernel's table of squared errors is the reference's squared errors over the four original axes, flattened to
  401408 × 128 instead of to one axis; a flattening only renames positions, so both have the same total. The kernel's
  result is the first half's total over the element count plus the second half's; every squared error is
  nonnegative, so that is the whole total, computed from zero, over the element count — the reference's result.
-/
import proofs.«158376_j38955353375166_2_alg».proof.Proof.KernelValue
import proofs.«158376_j38955353375166_2_alg».proof.Proof.RefValue

noncomputable section

open scoped BigOperators
open Idealize.ShloMosaic Idealize.ShloMosaic.TcCoe Idealize.SL.Sem Idealize.ShloMosaic.ValueIdx

namespace Cert.Bridge

open Cert.KernelIdeal Cert.KernelIdeal.Gen Cert.KernelIdeal.Acc Cert.KernelIdeal.Result

variable (m : (ℓ : Loc nD τ sig) → Buf (Elt Ideal) ℓ)

/-- The region finds the flattened source in `main_v0` … -/
theorem V_src (c : Dev nD) : (V m c main_v0 : S401408x128.Idx → EReal)
    = shapeCast S401408x128 (m ((c : Thread nD τ).loc main_arg0)) Facts₀.shapeCasts_S64x256x56x56_S401408x128 := by
  show StableHlo.after hostOps0 (fun b => m (c, b)) (Proc.devRef .tc main_v0) = _
  after_results
  rfl

/-- … and the flattened target in `main_v1`. -/
theorem V_tgt (c : Dev nD) : (V m c main_v1 : S401408x128.Idx → EReal)
    = shapeCast S401408x128 (m ((c : Thread nD τ).loc main_arg1)) Facts₀.shapeCasts_S64x256x56x56_S401408x128 := by
  show StableHlo.after hostOps0 (fun b => m (c, b)) (Proc.devRef .tc main_v1) = _
  after_results
  rfl

/-- The kernel's table is the four-axis squared errors, flattened. -/
theorem tbl_eq (c : Dev nD) : tbl m c
    = shapeCast S401408x128 (Cert.ReferenceIdeal.RefValue.errs (m ((c : Thread nD τ).loc main_arg0)) (m ((c : Thread nD τ).loc main_arg1)))
        Facts₀.shapeCasts_S64x256x56x56_S401408x128 := by
  funext i
  unfold tbl
  rw [V_src, V_tgt]
  rfl

/-- Same total. -/
theorem total_eq (c : Dev nD) : ∑ i, tbl m c i
    = ∑ i, Cert.ReferenceIdeal.RefValue.errs (m ((c : Thread nD τ).loc main_arg0)) (m ((c : Thread nD τ).loc main_arg1)) i := by
  rw [tbl_eq]
  exact Cert.LibTotalSum.sum_shapeCast _ _

/-- The kernel's result is the reference's. -/
theorem result_eq (c : Dev nD) (j : S_.Idx) : quot m c 0 + quot m c 1
    = Cert.ReferenceIdeal.Read.val_main_v13 (F := Ideal) (m ((c : Thread nD τ).loc main_arg0)) (m ((c : Thread nD τ).loc main_arg1)) j := by
  rw [Cert.ReferenceIdeal.RefValue.result_apply, ← total_eq m c]
  exact (Cert.Spec.mean_eq (tbl m c) (tbl_nonneg m c)).symm

end Cert.Bridge

end
-- ==== Proof.lean ====
/-
  The kernel streams both inputs, flattened to 401408 rows of 128 lanes, through a 2 × 49 grid of 4096-row blocks.
  Per element it forms d = (if a < 0 and b < 0 then b − a else a − b) − a with a the target and b the source, squares
  it, and adds each block's column sums into a 128-lane accumulator that is zeroed at the first step of each half; at
  the last step of a half the accumulator is summed across lanes, divided by the element count 51380224 and broadcast
  into that half's 8 × 128 output block. The host adds entry (0,0) and entry (8,0) of the 16 × 128 result.
  The reference flattens both inputs to one axis, forms the same d², sums everything and divides by the same count.
  Over the extended reals the two agree: a sum does not depend on grouping or order, every d² is nonnegative so both
  half sums are nonnegative, and division by a positive real distributes over a sum of nonnegative terms.
-/
import proofs.«158376_j38955353375166_2_alg».proof.Defs
import proofs.«158376_j38955353375166_2_alg».proof.Proof.Gen.Kernel
import proofs.«158376_j38955353375166_2_alg».proof.Proof.Gen.Kernel.Frame
import proofs.«158376_j38955353375166_2_alg».proof.Proof.Gen.KernelIdeal
import proofs.«158376_j38955353375166_2_alg».proof.Proof.Gen.KernelIdeal.Frame
import proofs.«158376_j38955353375166_2_alg».proof.Proof.Gen.ReferenceIdeal
import proofs.«158376_j38955353375166_2_alg».proof.Proof.Gen.ReferenceIdeal.Run
import proofs.«158376_j38955353375166_2_alg».proof.Proof.Gen.ReferenceIdeal.Read
import proofs.«158376_j38955353375166_2_alg».proof.Proof.Gen.Pre_finite_inputs
import proofs.«158376_j38955353375166_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the same number: the kernel's run read through the accumulation, the
    reference's run read operation by operation, and the two results identified. -/
theorem algebraic : Cert.algebraic_KernelIdeal_ReferenceIdeal := by
  intro m ρ m' ρ' _ hagree
  refine ⟨fun c => fun _ => Cert.KernelIdeal.Result.quot m c 0 + Cert.KernelIdeal.Result.quot m c 1,
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2]
  funext j
  exact (Cert.Bridge.result_eq m c j).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
